-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S192x192 : Shape := ⟨2, ![192, 192]⟩
abbrev S192 : Shape := ⟨1, ![192]⟩
abbrev S192x64 : Shape := ⟨2, ![192, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192 .f32) (main_arg6 : FVec F S192 .f32) (main_arg7 : FVec F S192x64 .f32) (main_arg8 : FVec F S64 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : FVec F S800000x64 .f32) (main_arg2 : IVec S2x800000 32) (main_arg3 : FVec F S192x192 .f32) (main_arg4 : FVec F S192 .f32) (main_arg5 : FVec F S192 .f32) (main_arg6 : FVec F S192 .f32) (main_arg7 : FVec F S192x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x192 .f32 := Host.absf main_arg3
  let main_cst_2 : FVec F S_ .f32 := constant S_ .f32 0x7F800000#32
  let main_v10 : FVec F S192x192 .f32 := broadcastInDim S192x192 ![] bcast_S_S192x192 main_cst_2
  let main_v11 : IVec S192x192 1 := cmpf .olt main_v9 main_v10
  let main_c_3 : IVec S_ 1 := constantI S_ 1 1#1
  let main_v12 : IVec S_ 1 := (fun x v => Host.reduce IntOp.andi x v reducesTo_S192x192_S_d0_1 h_S_) main_v11 main_c_3
  let main_v13 : IVec S_ 1 := andi main_v8 main_v12
  let main_v14 : FVec F S192 .f32 := Host.absf main_arg4
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg5 main_arg6 main_arg7 main_arg8 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S192x192 : Shape := ⟨2, ![192, 192]⟩
abbrev S192 : Shape := ⟨1, ![192]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x192 : Shape := ⟨2, ![1, 192]⟩
abbrev S1x64 : Shape := ⟨2, ![1, 64]⟩
abbrev S5000x128 : Shape := ⟨2, ![5000, 128]⟩
abbrev S5000x64 : Shape := ⟨2, ![5000, 64]⟩
abbrev S5000x192 : Shape := ⟨2, ![5000, 192]⟩
abbrev S5000 : Shape := ⟨1, ![5000]⟩
abbrev S5000x1 : Shape := ⟨2, ![5000, 1]⟩

abbrev nBuf : Space → Nat
  | .hbm => 40
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S192x192, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S192x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x64, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .bf16⟩
  | .hbm, ⟨32, _⟩ => ⟨S800000x128, .bf16⟩
  | .hbm, ⟨33, _⟩ => ⟨S192x192, .bf16⟩
  | .hbm, ⟨34, _⟩ => ⟨S192x64, .bf16⟩
  | .hbm, ⟨35, _⟩ => ⟨S1x192, .f32⟩
  | .hbm, ⟨36, _⟩ => ⟨S1x192, .f32⟩
  | .hbm, ⟨37, _⟩ => ⟨S1x192, .f32⟩
  | .hbm, ⟨38, _⟩ => ⟨S1x64, .f32⟩
  | .hbm, ⟨39, _⟩ => ⟨S800000x64, .f32⟩
  | .local _ .vmem, ⟨0, _⟩ => ⟨S5000x128, .bf16⟩
  | .local _ .vmem, ⟨1, _⟩ => ⟨S5000x128, .bf16⟩
  | .local _ .vmem, ⟨2, _⟩ => ⟨S5000x64, .f32⟩
  | .local _ .vmem, ⟨3, _⟩ => ⟨S5000x64, .f32⟩
  | .local _ .vmem, ⟨4, _⟩ => ⟨S192x192, .bf16⟩
  | .local _ .vmem, ⟨5, _⟩ => ⟨S1x192, .f32⟩
  | .local _ .vmem, ⟨6, _⟩ => ⟨S1x192, .f32⟩
  | .local _ .vmem, ⟨7, _⟩ => ⟨S1x192, .f32⟩
  | .local _ .vmem, ⟨8, _⟩ => ⟨S192x64, .bf16⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  shapeCasts_S192_S1x192 : S192.ShapeCasts S1x192
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  concatenates_S5000x128_S5000x64_S5000x192_d1 : Shape.Concatenates [S5000x128, S5000x64] S5000x192 1
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  reduces_S5000x192_S5000 : S5000x192.Reduces [1] S5000
  shapeCasts_S5000_S5000x1 : S5000.ShapeCasts S5000x1
  broadcasts_S5000x1_S5000x192 : S5000x1.Broadcasts S5000x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S5000x192_S192x192_S5000x192_1_0_0_1_n_n_wf : DotDims.WF S5000x192 S192x192 S5000x192 [1] [0] [0] [1] [] []
  dot_S5000x192_S192x64_S5000x64_1_0_0_1_n_n_wf : DotDims.WF S5000x192 S192x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .bf16 = 32 ∨ (Rect.block (s := S800000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x192.size a ≤ S192x192.size a
  hwx0_2 : ∀ i : grid0.Coords, EltTy.bits .bf16 = 32 ∨ (Rect.block (s := S192x192) S192x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x192.size a ≤ S1x192.size a
  hwx0_3 : ∀ i : grid0.Coords, EltTy.bits .f32 = 32 ∨ (Rect.block (s := S1x192) S1x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x64.size a ≤ S192x64.size a
  hwx0_6 : ∀ i : grid0.Coords, EltTy.bits .bf16 = 32 ∨ (Rect.block (s := S192x64) S192x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S800000x64.size a
  hwx0_8 : ∀ i : grid0.Coords, EltTy.bits .f32 = 32 ∨ (Rect.block (s := S800000x64) S5000x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x192_S192x192_S5000x192_1_0_0_1_n_n : DotDims S5000x192 S192x192 S5000x192 where
  lhsContracting := [1]
  rhsContracting := [0]
  lhsNonContracting := [0]
  rhsNonContracting := [1]
  lhsBatch := []
  rhsBatch := []
  wf := dot_S5000x192_S192x192_S5000x192_1_0_0_1_n_n_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S192x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S192x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S192x192 : Shape := ⟨2, ![192, 192]⟩
abbrev S192 : Shape := ⟨1, ![192]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S1x192 : Shape := ⟨2, ![1, 192]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S192x192, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S192x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x192, .f32⟩
  | .hbm, ⟨32, _⟩ => ⟨S800000x192, .f32⟩
  | .hbm, ⟨33, _⟩ => ⟨S1x192, .f32⟩
  | .hbm, ⟨34, _⟩ => ⟨S800000x192, .f32⟩
  | .hbm, ⟨35, _⟩ => ⟨S800000x192, .f32⟩
  | .hbm, ⟨36, _⟩ => ⟨S_, .f32⟩
  | .hbm, ⟨37, _⟩ => ⟨S800000, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | .hbm, ⟨42, _⟩ => ⟨S800000x192, .f32⟩
  | .hbm, ⟨43, _⟩ => ⟨S800000x192, .f32⟩
  | .hbm, ⟨44, _⟩ => ⟨S800000x192, .f32⟩
  | .hbm, ⟨45, _⟩ => ⟨S_, .f32⟩
  | .hbm, ⟨46, _⟩ => ⟨S800000, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x192, .f32⟩
  | .hbm, ⟨52, _⟩ => ⟨S800000x192, .f32⟩
  | .hbm, ⟨53, _⟩ => ⟨S_, .f32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S800000x192, .f32⟩
  | .hbm, ⟨58, _⟩ => ⟨S800000x192, .f32⟩
  | .hbm, ⟨59, _⟩ => ⟨S1x192, .f32⟩
  | .hbm, ⟨60, _⟩ => ⟨S800000x192, .f32⟩
  | .hbm, ⟨61, _⟩ => ⟨S800000x192, .f32⟩
  | .hbm, ⟨62, _⟩ => ⟨S1x192, .f32⟩
  | .hbm, ⟨63, _⟩ => ⟨S800000x192, .f32⟩
  | .hbm, ⟨64, _⟩ => ⟨S800000x192, .f32⟩
  | .hbm, ⟨65, _⟩ => ⟨S_, .f32⟩
  | .hbm, ⟨66, _⟩ => ⟨S800000x192, .f32⟩
  | .hbm, ⟨67, _⟩ => ⟨S800000x192, .f32⟩
  | .hbm, ⟨68, _⟩ => ⟨S800000x64, .f32⟩
  | .hbm, ⟨69, _⟩ => ⟨S1x64, .f32⟩
  | .hbm, ⟨70, _⟩ => ⟨S800000x64, .f32⟩
  | .hbm, ⟨71, _⟩ => ⟨S800000x64, .f32⟩
  | .hbm, ⟨72, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_cst : Ref sig .tc := ⟨.hbm, 65, rfl⟩
abbrev main_call0_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S192_S1x192_1 : S192.BroadcastsInDim S1x192 (![1] : Fin 1 → Fin S1x192.rank)
  bcast_S1x192_S800000x192_0_1 : S1x192.BroadcastsInDim S800000x192 (![0, 1] : Fin 2 → Fin S800000x192.rank)
  reducesTo_S800000x192_S800000_d1 : S800000x192.ReducesTo [1] S800000
  h_S_ : 0 < S_.numel
  bcast_S_S800000x1 : S_.BroadcastsInDim S800000x1 (![] : Fin 0 → Fin S800000x1.rank)
  bcast_S800000x1_S800000x192_0_1 : S800000x1.BroadcastsInDim S800000x192 (![0, 1] : Fin 2 → Fin S800000x192.rank)
  bcast_S_S800000x192 : S_.BroadcastsInDim S800000x192 (![] : Fin 0 → Fin S800000x192.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x192_S192x192_S800000x192_1_0_0_1_n_n_wf : DotDims.WF S800000x192 S192x192 S800000x192 [1] [0] [0] [1] [] []
  dot_S800000x192_S192x64_S800000x64_1_0_0_1_n_n_wf : DotDims.WF S800000x192 S192x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x192_S800000x192_1_0_0_1_n_n : DotDims S800000x192 S192x192 S800000x192 where
  lhsContracting := [1]
  rhsContracting := [0]
  lhsNonContracting := [0]
  rhsNonContracting := [1]
  lhsBatch := []
  rhsBatch := []
  wf := dot_S800000x192_S192x192_S800000x192_1_0_0_1_n_n_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf

class Facts : Prop extends Facts₀ where

variable [Facts]
-- ==== Proof.RowSpec.lean ====
/-
  One edge's update as a function of its feature row.

  For an edge with feature row `x` (192 numbers: the two endpoint rows and the edge's own row, side by side)
  the layer computes
    h_j   = (Σ_k x_k · W1[k, j]) + b1_j                       (first linear map)
    μ     = (Σ_j h_j) / 192,   v = (Σ_j (h_j − μ)²) / 192      (mean and variance of the row)
    a_j   = max (((h_j − μ) · rsqrt (v + ε)) · γ_j + β_j, 0)   (normalise, scale, shift, clip at zero)
    out_q = ((Σ_j a_j · W2[j, q]) + b2_q) + e_q               (second linear map and the residual)
  on the extended reals, every operation exact. The divisor 192, ε and the clip's zero are kept as the f32
  words both programs print, so neither is ever evaluated.
  The feature row is given two ways: as two pieces `[128 | 64]` (`row2`) and as three `[64 | 64 | 64]`
  (`row3`); when the first piece of the former is the first two of the latter side by side, they are the
  same row (`row2_eq_row3`).
-/
import Idealize.ShloMosaic.PureOps.Ideal
import Idealize.ShloMosaic.Lib.ValueIdx

noncomputable section

namespace Cert.EdgeRow

open Idealize.ShloMosaic Idealize.ShloMosaic.ValueIdx

/-- The first linear map at column `j`. -/
def lin1 (x : Fin 192 → EReal) (W1 : (⟨2, ![192, 192]⟩ : Shape).Idx → EReal) (b1 : Fin 192 → EReal)
    (j : Fin 192) : EReal :=
  (∑ k : Fin 192, x k * W1 (ix2 k j)) + b1 j

/-- The mean of a row of 192 entries: their sum over the f32 word of 192. -/
def mean (h : Fin 192 → EReal) : EReal :=
  Ideal.div (∑ k : Fin 192, h k) (Ideal.ofBits .f32 0x43400000#32)

/-- The row centred at its mean. -/
def centred (h : Fin 192 → EReal) (j : Fin 192) : EReal := h j - mean h

/-- Normalise by the row's mean and variance, scale by `g`, shift by `be`, clip at zero. -/
def normRelu (h g be : Fin 192 → EReal) (j : Fin 192) : EReal :=
  max (centred h j
        * Ideal.rsqrt (mean (fun k => centred h k * centred h k) + Ideal.ofBits .f32 0x3727C5AC#32)
        * g j + be j)
    (Ideal.ofBits .f32 0x00000000#32)

/-- The second linear map at column `q`, plus its bias, plus the residual. -/
def lin2res (a : Fin 192 → EReal) (W2 : (⟨2, ![192, 64]⟩ : Shape).Idx → EReal) (b2 e : Fin 64 → EReal)
    (q : Fin 64) : EReal :=
  (∑ j : Fin 192, a j * W2 (ix2 j q)) + b2 q + e q

/-- The whole update of one edge. -/
def update (x : Fin 192 → EReal) (W1 : (⟨2, ![192, 192]⟩ : Shape).Idx → EReal) (b1 g be : Fin 192 → EReal)
    (W2 : (⟨2, ![192, 64]⟩ : Shape).Idx → EReal) (b2 e : Fin 64 → EReal) (q : Fin 64) : EReal :=
  lin2res (normRelu (lin1 x W1 b1) g be) W2 b2 e q

/-- Row `r` of `[A | B]`, `A` of width 128 and `B` of width 64. -/
def row2 {n : ℕ} (A : (⟨2, ![n, 128]⟩ : Shape).Idx → EReal) (B : (⟨2, ![n, 64]⟩ : Shape).Idx → EReal)
    (r : Fin n) (k : Fin 192) : EReal :=
  if h : k.val < 128 then A (ix2 r ⟨k.val, h⟩) else B (ix2 r ⟨k.val - 128, by omega⟩)

/-- Row `r` of `[R | C | B]`, each of width 64. -/
def row3 {n : ℕ} (R C B : (⟨2, ![n, 64]⟩ : Shape).Idx → EReal) (r : Fin n) (k : Fin 192) : EReal :=
  if h : k.val < 64 then R (ix2 r ⟨k.val, h⟩)
  else if h' : k.val < 128 then C (ix2 r ⟨k.val - 64, by omega⟩)
  else B (ix2 r ⟨k.val - 128, by omega⟩)

/-- If `A` is `[R | C]` then `[A | B]` is `[R | C | B]`. -/
theorem row2_eq_row3 {n : ℕ} (A : (⟨2, ![n, 128]⟩ : Shape).Idx → EReal) (R C B : (⟨2, ![n, 64]⟩ : Shape).Idx → EReal)
    (hA : ∀ (r : Fin n) (k : Fin 128), A (ix2 r k) =
      if h : k.val < 64 then R (ix2 r ⟨k.val, h⟩) else C (ix2 r ⟨k.val - 64, by omega⟩))
    (r : Fin n) : row2 A B r = row3 R C B r := by
  funext k
  unfold row2 row3
  by_cases h1 : k.val < 64
  · have h2 : k.val < 128 := by omega
    rw [dif_pos h2, dif_pos h1, hA r ⟨k.val, h2⟩, dif_pos h1]
  · by_cases h2 : k.val < 128
    · rw [dif_pos h2, dif_neg h1, dif_pos h2, hA r ⟨k.val, h2⟩, dif_neg h1]
    · rw [dif_neg h2, dif_neg h1, dif_neg h2]

end Cert.EdgeRow

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.BodyValue.lean ====
/-
  What the kernel body stores, entry by entry.

  The body loads a block of 5000 edges — the endpoint rows `[5000, 128]`, the edges' own rows `[5000, 64]` —
  and the whole parameter arrays, and stores a block `[5000, 64]`. Entry `(p, q)` of the stored block is the
  update of edge `p` of the block (`Cert.EdgeRow.update`) at column `q`: the feature row is row `p` of
  the two loaded blocks side by side, the matrix products are plain sums over the 192 columns, each row sum
  with `keepdims` is that row's sum, read back along the row, and a change of float format is the identity.
-/
import proofs.«159118_j4784593568415_2_alg».proof.Proof.Gen.KernelIdeal.Skeleton
import proofs.«159118_j4784593568415_2_alg».proof.Proof.RowSpec
import proofs.«159118_j4784593568415_2_alg».proof.Proof.LibKeepdims
import proofs.«159118_j4784593568415_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen
open Idealize.ShloMosaic Idealize.ShloMosaic.ValueIdx Cert.EdgeRow Cert.LibKeepdims

/-- A reciprocal square root at an index is the exact one of the entry. -/
theorem rsqrt_apply {s : Shape} {φ : FTy} (a : FVec Ideal s φ) (i : s.Idx) : rsqrt a i = Ideal.rsqrt (a i) := rfl

/-! ## The non-pointwise operations of the body, each at an entry -/

/-- Row `p` of the two loaded blocks joined along the columns. -/
theorem concat_apply (A : FVec Ideal S5000x128 .bf16) (B : FVec Ideal S5000x64 .bf16) (p : Fin 5000) (k : Fin 192) :
    concatenate S5000x192 1 [⟨S5000x128, A⟩, ⟨S5000x64, B⟩] concatenates_S5000x128_S5000x64_S5000x192_d1 (ix2 p k)
      = row2 A B p k := by
  unfold row2
  by_cases h : k.val < 128
  · rw [dif_pos h]
    exact concatenate_pair_apply_left 1 A B _ (ix2 p k) rfl (ix2 p ⟨k.val, h⟩)
      (fun b => by match b with | ⟨0, _⟩ => rfl | ⟨1, _⟩ => rfl)
  · rw [dif_neg h]
    exact concatenate_pair_apply_right 1 A B _ (ix2 p k) rfl rfl (ix2 p ⟨k.val - 128, by omega⟩)
      (fun b hb => by
        match b, hb with
        | ⟨0, _⟩, _ => rfl
        | ⟨1, _⟩, hb => exact absurd rfl hb)
      (by show (k.val - 128) + 128 = k.val; omega)

/-- The first matrix product into a zero accumulator: the plain sum over the 192 columns. -/
theorem matmul1_apply (l : FVec Ideal S5000x192 .bf16) (r : FVec Ideal S192x192 .bf16) (p : Fin 5000) (j : Fin 192) :
    matmul dot_S5000x192_S192x192_S5000x192_1_0_0_1_n_n none l r (constant (F := Ideal) S5000x192 .f32 0x00000000#32) (ix2 p j)
      = ∑ k : Fin 192, l (ix2 p k) * r (ix2 k j) :=
  (Ideal.matmul_constant_zero_apply dot_S5000x192_S192x192_S5000x192_1_0_0_1_n_n none l r (ix2 p j)).trans
    (Cert.LibDotSum.sum_contr_eq_sum_fin dot_S5000x192_S192x192_S5000x192_1_0_0_1_n_n rfl rfl
      (fun i q => by
        unfold DotDims.lhsIdx
        rw [dif_neg (show ¬(0 : Fin S5000x192.rank) ∈ dot_S5000x192_S192x192_S5000x192_1_0_0_1_n_n.lhsBatch by decide),
          dif_pos (show (0 : Fin S5000x192.rank) ∈ dot_S5000x192_S192x192_S5000x192_1_0_0_1_n_n.lhsNonContracting by decide)]
        rfl)
      (fun i q => dot_S5000x192_S192x192_S5000x192_1_0_0_1_n_n.lhsIdx_val_of_single rfl i q)
      (fun i q => dot_S5000x192_S192x192_S5000x192_1_0_0_1_n_n.rhsIdx_val_of_single rfl i q)
      (fun i q => by
        unfold DotDims.rhsIdx
        rw [dif_neg (show ¬(1 : Fin S192x192.rank) ∈ dot_S5000x192_S192x192_S5000x192_1_0_0_1_n_n.rhsBatch by decide),
          dif_pos (show (1 : Fin S192x192.rank) ∈ dot_S5000x192_S192x192_S5000x192_1_0_0_1_n_n.rhsNonContracting by decide)]
        rfl)
      l r (ix2 p j))

/-- The second matrix product into a zero accumulator: the plain sum over the 192 hidden columns. -/
theorem matmul2_apply (l : FVec Ideal S5000x192 .bf16) (r : FVec Ideal S192x64 .bf16) (p : Fin 5000) (q : Fin 64) :
    matmul dot_S5000x192_S192x64_S5000x64_1_0_0_1_n_n none l r (constant (F := Ideal) S5000x64 .f32 0x00000000#32) (ix2 p q)
      = ∑ j : Fin 192, l (ix2 p j) * r (ix2 j q) :=
  (Ideal.matmul_constant_zero_apply dot_S5000x192_S192x64_S5000x64_1_0_0_1_n_n none l r (ix2 p q)).trans
    (Cert.LibDotSum.sum_contr_eq_sum_fin dot_S5000x192_S192x64_S5000x64_1_0_0_1_n_n rfl rfl
      (fun i c => by
        unfold DotDims.lhsIdx
        rw [dif_neg (show ¬(0 : Fin S5000x192.rank) ∈ dot_S5000x192_S192x64_S5000x64_1_0_0_1_n_n.lhsBatch by decide),
          dif_pos (show (0 : Fin S5000x192.rank) ∈ dot_S5000x192_S192x64_S5000x64_1_0_0_1_n_n.lhsNonContracting by decide)]
        rfl)
      (fun i c => dot_S5000x192_S192x64_S5000x64_1_0_0_1_n_n.lhsIdx_val_of_single rfl i c)
      (fun i c => dot_S5000x192_S192x64_S5000x64_1_0_0_1_n_n.rhsIdx_val_of_single rfl i c)
      (fun i c => by
        unfold DotDims.rhsIdx
        rw [dif_neg (show ¬(1 : Fin S192x64.rank) ∈ dot_S5000x192_S192x64_S5000x64_1_0_0_1_n_n.rhsBatch by decide),
          dif_pos (show (1 : Fin S192x64.rank) ∈ dot_S5000x192_S192x64_S5000x64_1_0_0_1_n_n.rhsNonContracting by decide)]
        rfl)
      l r (ix2 p q))

/-! ## The hidden block -/

/-- The first linear map of the block: `[endpoints | edge] · W1 + b1`, as the body spells it. -/
def hidden (v0 : FVec Ideal S5000x128 .bf16) (v2 : FVec Ideal S5000x64 .f32) (v5 : FVec Ideal S192x192 .bf16)
    (v8 : FVec Ideal S1x192 .f32) : FVec Ideal S5000x192 .f32 :=
  addf
    (matmul dot_S5000x192_S192x192_S5000x192_1_0_0_1_n_n none
      (concatenate S5000x192 1 [⟨S5000x128, shapeCast S5000x128 v0 shapeCasts_S5000x128_S5000x128⟩,
        ⟨S5000x64, truncf .bf16 v2 bitsLt_bf16_f32⟩] concatenates_S5000x128_S5000x64_S5000x192_d1)
      (shapeCast S192x192 v5 shapeCasts_S192x192_S192x192)
      (constant (F := Ideal) S5000x192 .f32 0x00000000#32))
    (broadcastTo S5000x192 (shapeCast S1x192 v8 shapeCasts_S1x192_S1x192) broadcasts_S1x192_S5000x192)

/-- Entry `(p, j)` of the hidden block is the first linear map of row `p` at column `j`. -/
theorem hidden_apply (v0 : FVec Ideal S5000x128 .bf16) (v2 : FVec Ideal S5000x64 .f32) (v5 : FVec Ideal S192x192 .bf16)
    (v8 : FVec Ideal S1x192 .f32) (p : Fin 5000) (j : Fin 192) :
    hidden v0 v2 v5 v8 (ix2 p j) = lin1 (row2 v0 v2 p) v5 (fun c => v8 (ix2 (0 : Fin 1) c)) j := by
  unfold hidden lin1
  simp only [addf_apply, matmul1_apply, broadcastTo_1b_ab_apply, shapeCast_self, concat_apply]
  rfl

/-! ## Mean, variance, normalisation -/

/-- The mean column of a block: the row sums, kept as a column, over the f32 word of 192. -/
def meanCol (h : FVec Ideal S5000x192 .f32) : FVec Ideal S5000x1 .f32 :=
  divf
    (shapeCast S5000x1 (multiReduction .add [1] S5000 h 0x00000000#32 reduces_S5000x192_S5000 (.inl rfl) rfl)
      shapeCasts_S5000_S5000x1)
    (broadcast S5000x1 (Scalar.ofBits (F := Ideal) .f32 0x43400000#32))

/-- Entry `(p, 0)` of the mean column is the mean of row `p`. -/
theorem meanCol_apply (h : FVec Ideal S5000x192 .f32) (p : Fin 5000) (u : Fin 1) :
    meanCol h (ix2 p u) = mean (fun k => h (ix2 p k)) := by
  unfold meanCol mean
  rw [divf_apply, shapeCast_a_a1_apply, broadcast_apply]
  exact congrArg (fun z => Ideal.div z (Ideal.ofBits .f32 0x43400000#32)) (reduceAdd_row reduces_S5000x192_S5000 h p)

/-- The block after normalisation, scale, shift and the clip at zero, as the body spells it. -/
def activated (h : FVec Ideal S5000x192 .f32) (v30 v34 : FVec Ideal S1x192 .f32) : FVec Ideal S5000x192 .f32 :=
  maximumf
    (addf
      (mulf
        (mulf (subf h (broadcastTo S5000x192 (meanCol h) broadcasts_S5000x1_S5000x192))
          (broadcastTo S5000x192
            (rsqrt (addf
              (meanCol (mulf (subf h (broadcastTo S5000x192 (meanCol h) broadcasts_S5000x1_S5000x192))
                (subf h (broadcastTo S5000x192 (meanCol h) broadcasts_S5000x1_S5000x192))))
              (broadcast S5000x1 (Scalar.ofBits (F := Ideal) .f32 0x3727C5AC#32))))
            broadcasts_S5000x1_S5000x192))
        (broadcastTo S5000x192 (shapeCast S1x192 v30 shapeCasts_S1x192_S1x192) broadcasts_S1x192_S5000x192))
      (broadcastTo S5000x192 (shapeCast S1x192 v34 shapeCasts_S1x192_S1x192) broadcasts_S1x192_S5000x192))
    (broadcast S5000x192 (Scalar.ofBits (F := Ideal) .f32 0x00000000#32))

/-- Entry `(p, j)` of the activated block is the normalised, clipped row `p` at column `j`. -/
theorem activated_apply (h : FVec Ideal S5000x192 .f32) (v30 v34 : FVec Ideal S1x192 .f32) (p : Fin 5000) (j : Fin 192) :
    activated h v30 v34 (ix2 p j)
      = normRelu (fun k => h (ix2 p k)) (fun c => v30 (ix2 (0 : Fin 1) c)) (fun c => v34 (ix2 (0 : Fin 1) c)) j := by
  unfold activated normRelu centred
  simp only [maximumf_apply, addf_apply, mulf_apply, subf_apply, rsqrt_apply, broadcast_apply,
    broadcastTo_a1_ab_apply, broadcastTo_1b_ab_apply, shapeCast_self, meanCol_apply]
  rfl

/-- The body's first payload is the activated hidden block. -/
theorem pay2_eq (v0 : FVec Ideal S5000x128 .bf16) (v2 : FVec Ideal S5000x64 .f32) (v5 : FVec Ideal S192x192 .bf16)
    (v8 v30 v34 : FVec Ideal S1x192 .f32) :
    k0_pay2 (F := Ideal) v0 v2 v5 v8 v30 v34 = activated (hidden v0 v2 v5 v8) v30 v34 := rfl

/-! ## The stored block -/

/-- Entry `(p, q)` of the body's second payload: the second linear map of the activated row, its bias, and
    the residual. -/
theorem pay1_apply (v2 : FVec Ideal S5000x64 .f32) (a : FVec Ideal S5000x192 .f32) (v41 : FVec Ideal S192x64 .bf16)
    (v44 : FVec Ideal S1x64 .f32) (p : Fin 5000) (q : Fin 64) :
    k0_pay1 (F := Ideal) v2 a v41 v44 (ix2 p q)
      = lin2res (fun j => a (ix2 p j)) v41 (fun c => v44 (ix2 (0 : Fin 1) c)) (fun c => v2 (ix2 p c)) q := by
  unfold k0_pay1 lin2res
  simp only [addf_apply, matmul2_apply, broadcastTo_1b_ab_apply, shapeCast_self, truncf_apply]

/-- ENTRY `(p, q)` OF WHAT THE BODY STORES: the update of the block's edge `p` at column `q`, from the
    rows of the loaded blocks. -/
theorem stored_apply (v0 : FVec Ideal S5000x128 .bf16) (v2 : FVec Ideal S5000x64 .f32) (v5 : FVec Ideal S192x192 .bf16)
    (v8 v30 v34 : FVec Ideal S1x192 .f32) (v41 : FVec Ideal S192x64 .bf16) (v44 : FVec Ideal S1x64 .f32)
    (p : Fin 5000) (q : Fin 64) :
    k0_pay1 (F := Ideal) v2 (k0_pay2 (F := Ideal) v0 v2 v5 v8 v30 v34) v41 v44 (ix2 p q)
      = update (row2 v0 v2 p) v5 (fun c => v8 (ix2 (0 : Fin 1) c)) (fun c => v30 (ix2 (0 : Fin 1) c))
          (fun c => v34 (ix2 (0 : Fin 1) c)) v41 (fun c => v44 (ix2 (0 : Fin 1) c)) (fun c => v2 (ix2 p c)) q := by
  rw [pay1_apply, pay2_eq]
  unfold update
  simp only [activated_apply, hidden_apply]

end Cert.KernelIdeal.BodyValue

end
-- ==== Proof.ArrayValue.lean ====
/-
  From the blocks to the whole result array.

  The grid has 160 points; point `t` works on edges `5000 t … 5000 t + 4999`: its endpoint block and edge block
  are those rows of their arrays, its parameter blocks are the whole parameter arrays, and it writes back rows
  `5000 t …` of the result. So what point `t` writes back is block `t` of ONE function of the arrays the
  region finds (`arrayOf`: entry `(e, q)` is the update of edge `e` at column `q`), the 160 blocks cover the
  result, and the result array ends holding that function.
-/
import proofs.«159118_j4784593568415_2_alg».proof.Proof.Gen.KernelIdeal.Value
import proofs.«159118_j4784593568415_2_alg».proof.Proof.BodyValue
import proofs.«159118_j4784593568415_2_alg».proof.Proof.RowSpec
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeRow
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-! ## The result as one function of the arrays the region finds -/

/-- The update of edge `e` at column `q` from the endpoint array `[800000, 128]`, the edge array and the
    parameter arrays in the shapes the kernel's windows have. -/
def edgeOf (NP : FVec Ideal S800000x128 .bf16) (EF : FVec Ideal S800000x64 .f32) (W1 : FVec Ideal S192x192 .bf16)
    (B1 G BE : FVec Ideal S1x192 .f32) (W2 : FVec Ideal S192x64 .bf16) (B2 : FVec Ideal S1x64 .f32)
    (e : Fin 800000) (q : Fin 64) : EReal :=
  update (row2 NP EF e) W1 (fun c => B1 (ix2 (0 : Fin 1) c)) (fun c => G (ix2 (0 : Fin 1) c))
    (fun c => BE (ix2 (0 : Fin 1) c)) W2 (fun c => B2 (ix2 (0 : Fin 1) c)) (fun c => EF (ix2 e c)) q

/-- The whole result array. -/
def arrayOf (NP : FVec Ideal S800000x128 .bf16) (EF : FVec Ideal S800000x64 .f32) (W1 : FVec Ideal S192x192 .bf16)
    (B1 G BE : FVec Ideal S1x192 .f32) (W2 : FVec Ideal S192x64 .bf16) (B2 : FVec Ideal S1x64 .f32) :
    FVec Ideal S800000x64 .f32 :=
  fun i => edgeOf NP EF W1 B1 G BE W2 B2 (i 0) (i 1)

/-! ## The index maps over the grid -/

/-- The printed index maps, decided over the 160 points: the output, the endpoint and the edge windows move
    with the point along the rows; every parameter window stays at its whole array. -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks, read off their arrays -/

/-- Entry `(p, k)` of the endpoint block at point `t` is the array's entry `(5000 t + p, k)`. -/
theorem blk0_apply (c : Dev nD) (t : Fin cfg0.N) (p : Fin 5000) (k : Fin 128) (r : Fin 800000)
    (hr : r.val = t.val * 5000 + p.val) :
    (iblk m c 0 t : FVec Ideal S5000x128 .bf16) (ix2 p k) = V m c main_v19 (ix2 r k) := by
  obtain ⟨_, _, e0, e1, _⟩ := idx_facts t
  show V m c main_v19 (((cfg0.win 0).blk t).view.emb (ix2 p k)) = V m c main_v19 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Entry `(p, k)` of the edge block at point `t` is the array's entry `(5000 t + p, k)`. -/
theorem blk1_apply (c : Dev nD) (t : Fin cfg0.N) (p : Fin 5000) (k : Fin 64) (r : Fin 800000)
    (hr : r.val = t.val * 5000 + p.val) :
    (iblk m c 1 t : FVec Ideal S5000x64 .f32) (ix2 p k) = V m c main_arg1 (ix2 r k) := by
  obtain ⟨_, _, _, _, e0, e1, _⟩ := idx_facts t
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- Window 2's block is its whole array at every point. -/
theorem blk2_eq (c : Dev nD) (t : Fin cfg0.N) : (iblk m c 2 t : FVec Ideal S192x192 .bf16) = V m c main_v20 := by
  obtain ⟨_, _, _, _, _, _, f2a, f2b, f3a, f3b, f4a, f4b, f5a, f5b, f6a, f6b, f7a, f7b⟩ := idx_facts t
  funext y
  show V m c main_v20 (((cfg0.win 2).blk t).view.emb y) = V m c main_v20 y
  refine congrArg _ (funext fun a => Fin.ext ?_)
  match a with
  | ⟨0, _⟩ => show win0_2.index t (0 : Fin 2) * 192 + 1 * (y 0).val = (y 0).val; omega
  | ⟨1, _⟩ => show win0_2.index t (1 : Fin 2) * 192 + 1 * (y 1).val = (y 1).val; omega

/-- Window 3's block is its whole array at every point. -/
theorem blk3_eq (c : Dev nD) (t : Fin cfg0.N) : (iblk m c 3 t : FVec Ideal S1x192 .f32) = V m c main_v22 := by
  obtain ⟨_, _, _, _, _, _, f2a, f2b, f3a, f3b, f4a, f4b, f5a, f5b, f6a, f6b, f7a, f7b⟩ := idx_facts t
  funext y
  show V m c main_v22 (((cfg0.win 3).blk t).view.emb y) = V m c main_v22 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 192 + 1 * (y 1).val = (y 1).val; omega

/-- Window 4's block is its whole array at every point. -/
theorem blk4_eq (c : Dev nD) (t : Fin cfg0.N) : (iblk m c 4 t : FVec Ideal S1x192 .f32) = V m c main_v23 := by
  obtain ⟨_, _, _, _, _, _, f2a, f2b, f3a, f3b, f4a, f4b, f5a, f5b, f6a, f6b, f7a, f7b⟩ := idx_facts t
  funext y
  show V m c main_v23 (((cfg0.win 4).blk t).view.emb y) = V m c main_v23 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 192 + 1 * (y 1).val = (y 1).val; omega

/-- Window 5's block is its whole array at every point. -/
theorem blk5_eq (c : Dev nD) (t : Fin cfg0.N) : (iblk m c 5 t : FVec Ideal S1x192 .f32) = V m c main_v24 := by
  obtain ⟨_, _, _, _, _, _, f2a, f2b, f3a, f3b, f4a, f4b, f5a, f5b, f6a, f6b, f7a, f7b⟩ := idx_facts t
  funext y
  show V m c main_v24 (((cfg0.win 5).blk t).view.emb y) = V m c main_v24 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 192 + 1 * (y 1).val = (y 1).val; omega

/-- Window 6's block is its whole array at every point. -/
theorem blk6_eq (c : Dev nD) (t : Fin cfg0.N) : (iblk m c 6 t : FVec Ideal S192x64 .bf16) = V m c main_v21 := by
  obtain ⟨_, _, _, _, _, _, f2a, f2b, f3a, f3b, f4a, f4b, f5a, f5b, f6a, f6b, f7a, f7b⟩ := idx_facts t
  funext y
  show V m c main_v21 (((cfg0.win 6).blk t).view.emb y) = V m c main_v21 y
  refine congrArg _ (funext fun a => Fin.ext ?_)
  match a with
  | ⟨0, _⟩ => show win0_6.index t (0 : Fin 2) * 192 + 1 * (y 0).val = (y 0).val; omega
  | ⟨1, _⟩ => show win0_6.index t (1 : Fin 2) * 64 + 1 * (y 1).val = (y 1).val; omega

/-- Window 7's block is its whole array at every point. -/
theorem blk7_eq (c : Dev nD) (t : Fin cfg0.N) : (iblk m c 7 t : FVec Ideal S1x64 .f32) = V m c main_v25 := by
  obtain ⟨_, _, _, _, _, _, f2a, f2b, f3a, f3b, f4a, f4b, f5a, f5b, f6a, f6b, f7a, f7b⟩ := idx_facts t
  funext y
  show V m c main_v25 (((cfg0.win 7).blk t).view.emb y) = V m c main_v25 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-! ## What a point writes back -/

/-- WHAT POINT `t` WRITES BACK is block `t` of `arrayOf` of the arrays as the region finds them. -/
theorem flushed_eq (c : Dev nD) (t : Fin cfg0.N) :
    (dats m 0 c).flushed 8 t = ((cfg0.win 8).blk t).view.read (Elt Ideal)
      (arrayOf (V m c main_v19) (V m c main_arg1) (V m c main_v20) (V m c main_v22) (V m c main_v23) (V m c main_v24) (V m c main_v21) (V m c main_v25)) := by
  rw [Value.flushed8]
  unfold out0_8
  rw [View.canon_unit_zero zeros2]
  simp only [View.ld_unit_zero (S := S5000x128) zeros2, View.ld_unit_zero (S := S5000x64) zeros2,
    View.ld_unit_zero (S := S192x192) zeros2, View.ld_unit_zero (S := S1x192) zeros2,
    View.ld_unit_zero (S := S192x64) zeros2, View.ld_unit_zero (S := S1x64) zeros2]
  funext y
  obtain ⟨p, q, rfl⟩ : ∃ (p : Fin 5000) (q : Fin 64), y = ix2 p q := ⟨y 0, y 1, eq_ix2 y⟩
  have hN : grid0.N = 160 := N_0
  have htl : t.val < 160 := lt_of_lt_of_eq t.isLt N_0
  let r : Fin 800000 := ⟨t.val * 5000 + p.val, by have := p.isLt; omega⟩
  have hr : r.val = t.val * 5000 + p.val := rfl
  obtain ⟨o0, o1, _⟩ := idx_facts t
  have hemb : ((cfg0.win 8).blk t).view.emb (ix2 p q) = ix2 r q := funext fun a => Fin.ext (by
    match a with
    | ⟨0, _⟩ => show win0_8.index t (0 : Fin 2) * 5000 + 1 * p.val = r.val; omega
    | ⟨1, _⟩ => show win0_8.index t (1 : Fin 2) * 64 + 1 * q.val = q.val; omega)
  show k0_pay1 (F := Ideal) (iblk m c 1 t) (k0_pay2 (F := Ideal) (iblk m c 0 t) (iblk m c 1 t) (iblk m c 2 t) (iblk m c 3 t)
      (iblk m c 4 t) (iblk m c 5 t)) (iblk m c 6 t) (iblk m c 7 t) (ix2 p q)
    = arrayOf (V m c main_v19) (V m c main_arg1) (V m c main_v20) (V m c main_v22) (V m c main_v23) (V m c main_v24) (V m c main_v21) (V m c main_v25) (((cfg0.win 8).blk t).view.emb (ix2 p q))
  rw [hemb]
  refine (BodyValue.stored_apply (iblk m c 0 t) (iblk m c 1 t) (iblk m c 2 t) (iblk m c 3 t) (iblk m c 4 t)
    (iblk m c 5 t) (iblk m c 6 t) (iblk m c 7 t) p q).trans ?_
  have hrow : row2 (iblk m c 0 t : FVec Ideal S5000x128 .bf16) (iblk m c 1 t : FVec Ideal S5000x64 .f32) p
      = row2 (V m c main_v19) (V m c main_arg1) r := by
    funext k
    unfold row2
    split
    · exact blk0_apply m c t p _ r hr
    · exact blk1_apply m c t p _ r hr
  have hres : (fun cc : Fin 64 => (iblk m c 1 t : FVec Ideal S5000x64 .f32) (ix2 p cc))
      = fun cc : Fin 64 => V m c main_arg1 (ix2 r cc) := funext fun cc => blk1_apply m c t p cc r hr
  rw [hrow, hres, blk2_eq m c t, blk3_eq m c t, blk4_eq m c t, blk5_eq m c t, blk6_eq m c t, blk7_eq m c t]
  rfl

/-! ## The blocks cover the result -/

/-- An index of the result is in point `t`'s block iff each coordinate is in the block's range on its axis. -/
theorem mem_blk (t : Fin cfg0.N) (i : S800000x64.Idx) :
    i ∈ ((cfg0.win 8).blk t).view.set ↔ ∀ a : Fin 2, win0_8.index t a * S5000x64.size a ≤ (i a).val
      ∧ (i a).val < win0_8.index t a * S5000x64.size a + S5000x64.size a := by
  show i ∈ ((View.whole main_v26).slice (win0_8.rect t)).set ↔ _
  rw [View.set_slice_whole, Rect.mem_set_unit]
  exact Iff.rfl

/-- Row `e` of the result is written back by point `e / 5000`. -/
theorem cover (i : S800000x64.Idx) :
    ∃ t : Fin cfg0.N, (cfg0.win 8).flush t = true ∧ i ∈ ((cfg0.win 8).blk t).view.set := by
  have h0 : (i 0).val < 800000 := (i 0).isLt
  have h1 : (i 1).val < 64 := (i 1).isLt
  have hN : grid0.N = 160 := N_0
  let t : Fin cfg0.N := ⟨(i 0).val / 5000, by show (i 0).val / 5000 < grid0.N; omega⟩
  have ht : t.val = (i 0).val / 5000 := rfl
  obtain ⟨o0, o1, _⟩ := idx_facts t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 64 ≤ (i 1).val ∧ (i 1).val < win0_8.index t (1 : Fin 2) * 64 + 64
    omega

/-- THE RESULT ARRAY after the run. -/
theorem final (c : Dev nD) : (dats m 0 c).arrAt 8 cfg0.N = arrayOf (V m c main_v19) (V m c main_arg1) (V m c main_v20) (V m c main_v22) (V m c main_v23) (V m c main_v24) (V m c main_v21) (V m c main_v25) :=
  (dats m 0 c).arrAt_eq_of_cover 8 _ (fun t _ => flushed_eq m c t) cover

/-- The kernel's run with the result array at `arrayOf` of the arrays the region finds, the arguments unchanged. -/
theorem run : θ_run defs (onTc (τ := τ) (main (F := Ideal))) ⟨m, fun _ => 0, ρ⟩ fun r => ∀ c : Dev nD,
      r.2.mem ((c : Thread nD τ).loc main_v26) = arrayOf (V m c main_v19) (V m c main_arg1) (V m c main_v20) (V m c main_v22) (V m c main_v23) (V m c main_v24) (V m c main_v21) (V m c main_v25)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.HostPrefix.lean ====
/-
  What the region finds in its windows' arrays.

  Before the region the program wraps each endpoint index below zero by 50000, gathers the two endpoint rows of
  every edge from the node array and joins them along the columns; casts the two weight matrices to a narrower
  float format, which is the identity on extended reals; and reshapes each parameter vector `[n]` to a row
  `[1, n]`. The index normalisation and the gather are the same operations, on the same arguments, as the
  reference's, so the gathered arrays are the reference's own gathered arrays.
-/
import proofs.«159118_j4784593568415_2_alg».proof.Proof.Gen.KernelIdeal.Frame
import proofs.«159118_j4784593568415_2_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The endpoint array the region finds: the reference's two gathered arrays, side by side. -/
theorem endpoints (c : Dev nD) :
    (V m c main_v19 : S800000x128.Idx → EReal)
      = concatenate S800000x128 1
          [⟨S800000x64, Cert.ReferenceIdeal.Read.val_main_v10 (F := Ideal) (m ((c : Thread nD τ).loc main_arg0)) (m ((c : Thread nD τ).loc main_arg2))⟩,
           ⟨S800000x64, Cert.ReferenceIdeal.Read.val_main_v17 (F := Ideal) (m ((c : Thread nD τ).loc main_arg0)) (m ((c : Thread nD τ).loc main_arg2))⟩]
          concatenates_S800000x64_S800000x64_S800000x128_d1 := by
  dsimp only [V, hostOps0]
  after_results_simp
  rfl

/-- The first weight matrix the region finds is the argument's. -/
theorem weights1 (c : Dev nD) : (V m c main_v20 : S192x192.Idx → EReal) = (m ((c : Thread nD τ).loc main_arg3)) := by
  dsimp only [V, hostOps0]
  after_results
  rfl

/-- The second weight matrix the region finds is the argument's. -/
theorem weights2 (c : Dev nD) : (V m c main_v21 : S192x64.Idx → EReal) = (m ((c : Thread nD τ).loc main_arg7)) := by
  dsimp only [V, hostOps0]
  after_results
  rfl

/-- The first bias row the region finds is the argument, reshaped. -/
theorem bias1 (c : Dev nD) :
    (V m c main_v22 : S1x192.Idx → EReal) = shapeCast S1x192 (m ((c : Thread nD τ).loc main_arg4)) shapeCasts_S192_S1x192 := by
  dsimp only [V, hostOps0]
  after_results
  rfl

/-- The scale row the region finds is the argument, reshaped. -/
theorem scale (c : Dev nD) :
    (V m c main_v23 : S1x192.Idx → EReal) = shapeCast S1x192 (m ((c : Thread nD τ).loc main_arg5)) shapeCasts_S192_S1x192 := by
  dsimp only [V, hostOps0]
  after_results
  rfl

/-- The shift row the region finds is the argument, reshaped. -/
theorem shift (c : Dev nD) :
    (V m c main_v24 : S1x192.Idx → EReal) = shapeCast S1x192 (m ((c : Thread nD τ).loc main_arg6)) shapeCasts_S192_S1x192 := by
  dsimp only [V, hostOps0]
  after_results
  rfl

/-- The second bias row the region finds is the argument, reshaped. -/
theorem bias2 (c : Dev nD) :
    (V m c main_v25 : S1x64.Idx → EReal) = shapeCast S1x64 (m ((c : Thread nD τ).loc main_arg8)) shapeCasts_S64_S1x64 := by
  dsimp only [V, hostOps0]
  after_results
  rfl

end Cert.KernelIdeal.HostPrefix

end
-- ==== Proof.RefRead.lean ====
/-
  The reference, entry by entry.

  The reference computes the same chain on whole arrays of 800000 edges: the feature matrix is the two gathered
  endpoint arrays and the edge array joined along the columns; `dot_general` is the plain sum over the 192
  columns; each `reduce add` starts from the zero word, which is the extended real `0`, so it is the row's
  sum; the keepdims columns and the row parameters are read back by `broadcast_in_dim`. Entry `(e, q)` of
  the result is `Cert.EdgeRow.update` of row `e` at column `q`.
-/
import proofs.«159118_j4784593568415_2_alg».proof.Proof.Gen.ReferenceIdeal.Read
import proofs.«159118_j4784593568415_2_alg».proof.Proof.RowSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.EdgeRow

/-! ## Where each layout operation reads, by coordinates -/

theorem i23 (e : Fin 800000) (k : Fin 192) : idx_main_v23 (ix1 e) k = ix2 e k := funext fun a => Fin.ext (by match a with | ⟨0, _⟩ => rfl | ⟨1, _⟩ => rfl)
theorem i24 (e : Fin 800000) (u : Fin 1) : idx_main_v24 (ix2 e u) = ix1 e := funext fun a => Fin.ext (by match a with | ⟨0, _⟩ => rfl)
theorem i27 (e : Fin 800000) (j : Fin 192) : idx_main_v27 (ix2 e j) = ix2 e (0 : Fin 1) := funext fun a => Fin.ext (by match a with | ⟨0, _⟩ => rfl | ⟨1, _⟩ => rfl)
theorem i30 (e : Fin 800000) (k : Fin 192) : idx_main_v30 (ix1 e) k = ix2 e k := funext fun a => Fin.ext (by match a with | ⟨0, _⟩ => rfl | ⟨1, _⟩ => rfl)
theorem i31 (e : Fin 800000) (u : Fin 1) : idx_main_v31 (ix2 e u) = ix1 e := funext fun a => Fin.ext (by match a with | ⟨0, _⟩ => rfl)
theorem i34 (e : Fin 800000) (j : Fin 192) : idx_main_v34 (ix2 e j) = ix2 e (0 : Fin 1) := funext fun a => Fin.ext (by match a with | ⟨0, _⟩ => rfl | ⟨1, _⟩ => rfl)
theorem i39 (e : Fin 800000) (j : Fin 192) : idx_main_v39 (ix2 e j) = ix2 e (0 : Fin 1) := funext fun a => Fin.ext (by match a with | ⟨0, _⟩ => rfl | ⟨1, _⟩ => rfl)
theorem i20 (u : Fin 1) (j : Fin 192) : idx_main_v20 (ix2 u j) = ix1 j := funext fun a => Fin.ext (by match a with | ⟨0, _⟩ => rfl)
theorem i21 (e : Fin 800000) (j : Fin 192) : idx_main_v21 (ix2 e j) = ix2 (0 : Fin 1) j := funext fun a => Fin.ext (by match a with | ⟨0, _⟩ => rfl | ⟨1, _⟩ => rfl)
theorem i41 (u : Fin 1) (j : Fin 192) : idx_main_v41 (ix2 u j) = ix1 j := funext fun a => Fin.ext (by match a with | ⟨0, _⟩ => rfl)
theorem i42 (e : Fin 800000) (j : Fin 192) : idx_main_v42 (ix2 e j) = ix2 (0 : Fin 1) j := funext fun a => Fin.ext (by match a with | ⟨0, _⟩ => rfl | ⟨1, _⟩ => rfl)
theorem i44 (u : Fin 1) (j : Fin 192) : idx_main_v44 (ix2 u j) = ix1 j := funext fun a => Fin.ext (by match a with | ⟨0, _⟩ => rfl)
theorem i45 (e : Fin 800000) (j : Fin 192) : idx_main_v45 (ix2 e j) = ix2 (0 : Fin 1) j := funext fun a => Fin.ext (by match a with | ⟨0, _⟩ => rfl | ⟨1, _⟩ => rfl)
theorem i49 (u : Fin 1) (q : Fin 64) : idx_main_v49 (ix2 u q) = ix1 q := funext fun a => Fin.ext (by match a with | ⟨0, _⟩ => rfl)
theorem i50 (e : Fin 800000) (q : Fin 64) : idx_main_v50 (ix2 e q) = ix2 (0 : Fin 1) q := funext fun a => Fin.ext (by match a with | ⟨0, _⟩ => rfl | ⟨1, _⟩ => rfl)
theorem l19 (e : Fin 800000) (j k : Fin 192) : lidx_main_v19 (ix2 e j) k = ix2 e k := funext fun a => Fin.ext (by match a with | ⟨0, _⟩ => rfl | ⟨1, _⟩ => rfl)
theorem r19 (e : Fin 800000) (j k : Fin 192) : ridx_main_v19 (ix2 e j) k = ix2 k j := funext fun a => Fin.ext (by match a with | ⟨0, _⟩ => rfl | ⟨1, _⟩ => rfl)
theorem l48 (e : Fin 800000) (q : Fin 64) (k : Fin 192) : lidx_main_v48 (ix2 e q) k = ix2 e k := funext fun a => Fin.ext (by match a with | ⟨0, _⟩ => rfl | ⟨1, _⟩ => rfl)
theorem r48 (e : Fin 800000) (q : Fin 64) (k : Fin 192) : ridx_main_v48 (ix2 e q) k = ix2 k q := funext fun a => Fin.ext (by match a with | ⟨0, _⟩ => rfl | ⟨1, _⟩ => rfl)

/-- A host sum that starts from the zero word, over the word of 192: the mean of the summands. -/
theorem mean_host (f : Fin 192 → EReal) :
    FloatOps.hostDivf (F := Ideal) (φ := .f32) (FloatOps.ofBits (F := Ideal) .f32 0x00000000#32 + ∑ k : Fin 192, f k)
      (FloatOps.ofBits (F := Ideal) .f32 0x43400000#32) = mean f := by
  unfold mean
  rw [Ideal.hostDivf_def, Ideal.ofBits_def, Ideal.ofBits_def, Ideal.ofBits_zero_f32, zero_add]

/-! ## The feature matrix -/

/-- Row `e` of the feature matrix: the two gathered endpoint rows and the edge's row, side by side. -/
theorem features_apply (x0 : (⟨S50000x64, .f32⟩ : BufTy).Contents (Elt Ideal)) (x1 : (⟨S800000x64, .f32⟩ : BufTy).Contents (Elt Ideal))
    (x2 : (⟨S2x800000, .i32⟩ : BufTy).Contents (Elt Ideal)) (e : Fin 800000) (k : Fin 192) :
    val_main_v18 (F := Ideal) x0 x1 x2 (ix2 e k)
      = row3 (val_main_v10 (F := Ideal) x0 x2) (val_main_v17 (F := Ideal) x0 x2) x1 e k := by
  unfold val_main_v18 row3
  generalize val_main_v10 (F := Ideal) x0 x2 = R
  generalize val_main_v17 (F := Ideal) x0 x2 = C
  by_cases h1 : k.val < 64
  · rw [dif_pos h1]
    exact concatenate_apply_piece 1 _ _ (ix2 e k) 0 (by show (0 : ℕ) < 3; omega) S800000x64 R rfl rfl 0 rfl (ix2 e ⟨k.val, h1⟩)
      (fun b hb => by
        match b, hb with
        | ⟨0, _⟩, _ => rfl
        | ⟨1, _⟩, hb => exact absurd rfl hb)
      (by show 0 + k.val = k.val; omega)
  · rw [dif_neg h1]
    by_cases h2 : k.val < 128
    · rw [dif_pos h2]
      exact concatenate_apply_piece 1 _ _ (ix2 e k) 1 (by show (1 : ℕ) < 3; omega) S800000x64 C rfl rfl 64 rfl (ix2 e ⟨k.val - 64, by omega⟩)
        (fun b hb => by
          match b, hb with
          | ⟨0, _⟩, _ => rfl
          | ⟨1, _⟩, hb => exact absurd rfl hb)
        (by show 64 + (k.val - 64) = k.val; omega)
    · rw [dif_neg h2]
      exact concatenate_apply_piece 1 _ _ (ix2 e k) 2 (by show (2 : ℕ) < 3; omega) S800000x64 x1 rfl rfl 128 rfl (ix2 e ⟨k.val - 128, by omega⟩)
        (fun b hb => by
          match b, hb with
          | ⟨0, _⟩, _ => rfl
          | ⟨1, _⟩, hb => exact absurd rfl hb)
        (by show 128 + (k.val - 128) = k.val; have := k.isLt; omega)

/-! ## The chain, stage by stage -/

/-- The first linear map at `(e, j)`. -/
theorem hidden_apply (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 : (⟨S192, .f32⟩ : BufTy).Contents (Elt Ideal)) (e : Fin 800000) (j : Fin 192) :
    val_main_v22 (F := Ideal) x0 x1 x2 x3 x4 (ix2 e j)
      = lin1 (fun k => val_main_v18 (F := Ideal) x0 x1 x2 (ix2 e k)) x3 (fun c => x4 (ix1 c)) j := by
  unfold lin1
  rw [val_main_v22_apply, val_main_v19_apply, val_main_v21_apply, val_main_v20_apply]
  simp only [l19, r19, i21, i20]
  rfl

/-- The mean column at `(e, 0)` is the mean of row `e` of the hidden array. -/
theorem mean_apply (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 : (⟨S192, .f32⟩ : BufTy).Contents (Elt Ideal)) (e : Fin 800000) (u : Fin 1) :
    val_main_v26 (F := Ideal) x0 x1 x2 x3 x4 (ix2 e u)
      = mean (fun k => val_main_v22 (F := Ideal) x0 x1 x2 x3 x4 (ix2 e k)) := by
  rw [val_main_v26_apply, val_main_v24_apply, val_main_v25_apply, val_main_cst_3_apply, i24, val_main_v23_apply,
    val_main_cst_apply]
  simp only [i23]
  exact mean_host _

/-- The activated array at `(e, j)`: row `e` normalised, scaled, shifted, clipped. -/
theorem activated_apply (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 : (⟨S192, .f32⟩ : BufTy).Contents (Elt Ideal)) (x5 x6 : (⟨S192, .f32⟩ : BufTy).Contents (Elt Ideal)) (e : Fin 800000) (j : Fin 192) :
    val_main_v47 (F := Ideal) x0 x1 x2 x3 x4 x5 x6 (ix2 e j)
      = normRelu (fun k => val_main_v22 (F := Ideal) x0 x1 x2 x3 x4 (ix2 e k)) (fun c => x5 (ix1 c)) (fun c => x6 (ix1 c)) j := by
  have hvar : val_main_v33 (F := Ideal) x0 x1 x2 x3 x4 (ix2 e (0 : Fin 1))
      = mean (fun k => centred (fun k' => val_main_v22 (F := Ideal) x0 x1 x2 x3 x4 (ix2 e k')) k
          * centred (fun k' => val_main_v22 (F := Ideal) x0 x1 x2 x3 x4 (ix2 e k')) k) := by
    rw [val_main_v33_apply, val_main_v31_apply, val_main_v32_apply, val_main_cst_5_apply, i31, val_main_v30_apply,
      val_main_cst_4_apply]
    simp only [i30, val_main_v29_apply, val_main_v28_apply, val_main_v27_apply, i27, mean_apply]
    exact mean_host _
  unfold normRelu
  rw [val_main_v47_apply, val_main_v46_apply, val_main_v43_apply, val_main_v40_apply, val_main_v35_apply,
    val_main_v34_apply, val_main_v39_apply, val_main_v38_apply, val_main_v37_apply, val_main_v36_apply,
    val_main_cst_6_apply, val_main_v42_apply, val_main_v41_apply, val_main_v45_apply, val_main_v44_apply,
    val_main_call0_v0_apply, val_main_call0_cst_apply, i34, i39, i42, i41, i45, i44, mean_apply, hvar]
  rfl

/-- The result at `(e, q)`: the second linear map of the activated row, its bias, the residual. -/
theorem result_apply (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 : (⟨S192, .f32⟩ : BufTy).Contents (Elt Ideal)) (x5 x6 : (⟨S192, .f32⟩ : BufTy).Contents (Elt Ideal)) (x7 : (⟨S192x64, .f32⟩ : BufTy).Contents (Elt Ideal)) (x8 : (⟨S64, .f32⟩ : BufTy).Contents (Elt Ideal)) (e : Fin 800000) (q : Fin 64) :
    val_main_v52 (F := Ideal) x0 x1 x2 x3 x4 x5 x6 x7 x8 (ix2 e q)
      = lin2res (fun j => val_main_v47 (F := Ideal) x0 x1 x2 x3 x4 x5 x6 (ix2 e j)) x7 (fun c => x8 (ix1 c))
          (fun c => x1 (ix2 e c)) q := by
  unfold lin2res
  rw [val_main_v52_apply, val_main_v51_apply, val_main_v48_apply, val_main_v50_apply, val_main_v49_apply]
  simp only [l48, r48, i50, i49]
  rfl

/-- THE REFERENCE'S RESULT at `(e, q)` is the update of edge `e` at column `q`, from the gathered endpoint
    rows, the edge's row and the parameters. -/
theorem update_apply (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 : (⟨S192, .f32⟩ : BufTy).Contents (Elt Ideal)) (x5 x6 : (⟨S192, .f32⟩ : BufTy).Contents (Elt Ideal)) (x7 : (⟨S192x64, .f32⟩ : BufTy).Contents (Elt Ideal)) (x8 : (⟨S64, .f32⟩ : BufTy).Contents (Elt Ideal)) (e : Fin 800000) (q : Fin 64) :
    val_main_v52 (F := Ideal) x0 x1 x2 x3 x4 x5 x6 x7 x8 (ix2 e q)
      = update (row3 (val_main_v10 (F := Ideal) x0 x2) (val_main_v17 (F := Ideal) x0 x2) x1 e) x3
          (fun c => x4 (ix1 c)) (fun c => x5 (ix1 c)) (fun c => x6 (ix1 c)) x7 (fun c => x8 (ix1 c))
          (fun c => x1 (ix2 e c)) q := by
  rw [result_apply]
  unfold update
  simp only [activated_apply, hidden_apply, features_apply]

/-! ## The result as one function of the arguments -/

/-- THE RESULT both programs compute: entry `(e, q)` is the update of edge `e` at column `q`, its feature
    row the two gathered endpoint rows and its own row. -/
def result (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 x5 x6 : (⟨S192, .f32⟩ : BufTy).Contents (Elt Ideal)) (x7 : (⟨S192x64, .f32⟩ : BufTy).Contents (Elt Ideal)) (x8 : (⟨S64, .f32⟩ : BufTy).Contents (Elt Ideal)) : S800000x64.Idx → EReal := fun i =>
  update (row3 (val_main_v10 (F := Ideal) x0 x2) (val_main_v17 (F := Ideal) x0 x2) x1 (i 0)) x3
    (fun c => x4 (ix1 c)) (fun c => x5 (ix1 c)) (fun c => x6 (ix1 c)) x7 (fun c => x8 (ix1 c))
    (fun c => x1 (ix2 (i 0) c)) (i 1)

/-- The reference's last stage is that function. -/
theorem ref_eq (x0 : (⟨S50000x64, .f32⟩ : BufTy).Contents (Elt Ideal)) (x1 : (⟨S800000x64, .f32⟩ : BufTy).Contents (Elt Ideal)) (x2 : (⟨S2x800000, .i32⟩ : BufTy).Contents (Elt Ideal)) (x3 : (⟨S192x192, .f32⟩ : BufTy).Contents (Elt Ideal)) (x4 x5 x6 : (⟨S192, .f32⟩ : BufTy).Contents (Elt Ideal)) (x7 : (⟨S192x64, .f32⟩ : BufTy).Contents (Elt Ideal)) (x8 : (⟨S64, .f32⟩ : BufTy).Contents (Elt Ideal)) :
    val_main_v52 (F := Ideal) x0 x1 x2 x3 x4 x5 x6 x7 x8 = result x0 x1 x2 x3 x4 x5 x6 x7 x8 := by
  funext i
  obtain ⟨e, q, rfl⟩ : ∃ (e : Fin 800000) (q : Fin 64), i = ix2 e q := ⟨i 0, i 1, eq_ix2 i⟩
  exact update_apply x0 x1 x2 x3 x4 x5 x6 x7 x8 e q

end Cert.ReferenceIdeal.RefValue

end
-- ==== Proof.KernelResult.lean ====
/-
  The kernel's result array is the common result function of the arguments.

  The array the kernel leaves is `arrayOf` of the arrays its windows see. Those are: the two gathered endpoint
  arrays side by side (so the kernel's `[128 | 64]` feature row is the `[64 | 64 | 64]` one), the edge array,
  the weight matrices themselves, and each parameter vector as a one-row matrix, whose entry `(0, c)` is the
  vector's entry `c`. Hence entry `(e, q)` is the update of edge `e` at column `q`, as for the reference.
-/
import proofs.«159118_j4784593568415_2_alg».proof.Proof.ArrayValue
import proofs.«159118_j4784593568415_2_alg».proof.Proof.HostPrefix
import proofs.«159118_j4784593568415_2_alg».proof.Proof.RefRead
import Idealize.ShloMosaic.Lib.Pipeline.Value
import Idealize.ShloMosaic.Lib.ValueIdx
import Idealize.ShloMosaic.Lib.ValueLayout

noncomputable section

namespace Cert.KernelIdeal.KernelResult

open Cert.KernelIdeal Cert.KernelIdeal.Gen Idealize.ShloMosaic Idealize.ShloMosaic.TcCoe Idealize.SL.Sem
open Idealize.ShloMosaic.ValueIdx Cert.EdgeRow Cert.KernelIdeal.ArrayValue

/-- Two arrays `[800000, 64]` joined along the columns, at `(r, k)`. -/
theorem joined_apply (R C : FVec Ideal S800000x64 .bf16) (r : Fin 800000) (k : Fin 128) :
    concatenate S800000x128 1 [⟨S800000x64, R⟩, ⟨S800000x64, C⟩] concatenates_S800000x64_S800000x64_S800000x128_d1 (ix2 r k)
      = if h : k.val < 64 then R (ix2 r ⟨k.val, h⟩) else C (ix2 r ⟨k.val - 64, by omega⟩) := by
  by_cases h : k.val < 64
  · rw [dif_pos h]
    exact concatenate_pair_apply_left 1 R C _ (ix2 r k) rfl (ix2 r ⟨k.val, h⟩)
      (fun b => by match b with | ⟨0, _⟩ => rfl | ⟨1, _⟩ => rfl)
  · rw [dif_neg h]
    exact concatenate_pair_apply_right 1 R C _ (ix2 r k) rfl rfl (ix2 r ⟨k.val - 64, by omega⟩)
      (fun b hb => by
        match b, hb with
        | ⟨0, _⟩, _ => rfl
        | ⟨1, _⟩, hb => exact absurd rfl hb)
      (by show (k.val - 64) + 64 = k.val; omega)

/-- The update read off the windows' arrays is the update read off the gathered arrays, the edge array and the
    parameter vectors. -/
theorem edgeOf_eq (NP : FVec Ideal S800000x128 .bf16) (EF' : FVec Ideal S800000x64 .f32) (W1' : FVec Ideal S192x192 .bf16)
    (B1 G BE : FVec Ideal S1x192 .f32) (W2' : FVec Ideal S192x64 .bf16) (B2 : FVec Ideal S1x64 .f32)
    (R C : FVec Ideal S800000x64 .bf16) (EF : FVec Ideal S800000x64 .f32) (W1 : FVec Ideal S192x192 .f32)
    (b1 g be : FVec Ideal S192 .f32) (W2 : FVec Ideal S192x64 .f32) (b2 : FVec Ideal S64 .f32)
    (hNP : NP = concatenate S800000x128 1 [⟨S800000x64, R⟩, ⟨S800000x64, C⟩] concatenates_S800000x64_S800000x64_S800000x128_d1)
    (hEF : EF' = EF) (hW1 : W1' = W1) (hB1 : B1 = shapeCast S1x192 b1 shapeCasts_S192_S1x192)
    (hG : G = shapeCast S1x192 g shapeCasts_S192_S1x192) (hBE : BE = shapeCast S1x192 be shapeCasts_S192_S1x192)
    (hW2 : W2' = W2) (hB2 : B2 = shapeCast S1x64 b2 shapeCasts_S64_S1x64) (e : Fin 800000) (q : Fin 64) :
    edgeOf NP EF' W1' B1 G BE W2' B2 e q
      = update (row3 R C EF e) W1 (fun c => b1 (ix1 c)) (fun c => g (ix1 c)) (fun c => be (ix1 c)) W2
          (fun c => b2 (ix1 c)) (fun c => EF (ix2 e c)) q := by
  subst hNP hEF hW1 hB1 hG hBE hW2 hB2
  unfold edgeOf
  rw [row2_eq_row3 _ R C EF' (fun r k => joined_apply R C r k) e]
  simp only [shapeCast_a_1a_apply]

variable (m : (ℓ : Loc nD τ sig) → Buf (Elt Ideal) ℓ) (ρ : Dev nD → PrngReg)

/-- THE KERNEL'S RESULT ARRAY is the common result function of the argument arrays. -/
theorem result_eq (c : Dev nD) :
    arrayOf (V m c main_v19) (V m c main_arg1) (V m c main_v20) (V m c main_v22) (V m c main_v23) (V m c main_v24)
        (V m c main_v21) (V m c main_v25)
      = Cert.ReferenceIdeal.RefValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨e, q, rfl⟩ : ∃ (e : Fin 800000) (q : Fin 64), i = ix2 e q := ⟨i 0, i 1, eq_ix2 i⟩
  exact edgeOf_eq _ _ _ _ _ _ _ _ _ _ _ _ _ _ _ _ _ (HostPrefix.endpoints m c) (V_main_arg1 m c) (HostPrefix.weights1 m c)
    (HostPrefix.bias1 m c) (HostPrefix.scale m c) (HostPrefix.shift m c) (HostPrefix.weights2 m c) (HostPrefix.bias2 m c) e q

/-- The kernel's run with its result array at the common result function, the arguments unchanged. -/
theorem run : θ_run defs (onTc (τ := τ) (main (F := Ideal))) ⟨m, fun _ => 0, ρ⟩ fun r => ∀ c : Dev nD,
      r.2.mem ((c : Thread nD τ).loc main_v26)
        = Cert.ReferenceIdeal.RefValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_eq m c), (h c).2⟩) (ArrayValue.run m ρ)

end Cert.KernelIdeal.KernelResult

end
-- ==== Proof.lean ====
/-
  The kernel against its reference: one round of edge updates in a message-passing network.

  For each of 800000 edges both programs take the feature row made of the edge's two endpoint rows (gathered
  from the node array, an endpoint index below zero wrapped by the number of nodes) and the edge's own row,
  apply a linear map with bias, normalise the 192 results by their mean and variance, scale, shift and clip at
  zero, apply a second linear map with bias, and add the edge's own row back.

  The reference does this on whole arrays. The kernel gathers the endpoint rows before its region, then works on
  blocks of 5000 edges, each grid point storing its block of the result. On the extended reals, where every
  operation is exact and a change of float format is the identity, the two compute the same function of the
  arguments entry by entry (`Cert.ReferenceIdeal.RefValue.result`): the matrix products are the same plain
  sums over the 192 columns, the row sums the same sums, the feature row the same 192 numbers whether joined as
  `[128 | 64]` or as `[64 | 64 | 64]`, and every literal — the divisor 192, the ε under the square root, the
  clip's zero — is the same word on both sides. No sum is reordered and no law that needs finite values is
  used, so the precondition is never opened.

  The three frames are the generated runs; the idealisation rewrote nothing, so `preserves` is trivial.
-/
import proofs.«159118_j4784593568415_2_alg».proof.Defs
import proofs.«159118_j4784593568415_2_alg».proof.Proof.Gen.Kernel
import proofs.«159118_j4784593568415_2_alg».proof.Proof.Gen.Kernel.Skeleton
import proofs.«159118_j4784593568415_2_alg».proof.Proof.Gen.Kernel.Launch
import proofs.«159118_j4784593568415_2_alg».proof.Proof.Gen.Kernel.Points
import proofs.«159118_j4784593568415_2_alg».proof.Proof.Gen.Kernel.Frame
import proofs.«159118_j4784593568415_2_alg».proof.Proof.Gen.KernelIdeal
import proofs.«159118_j4784593568415_2_alg».proof.Proof.Gen.KernelIdeal.Skeleton
import proofs.«159118_j4784593568415_2_alg».proof.Proof.Gen.KernelIdeal.Launch
import proofs.«159118_j4784593568415_2_alg».proof.Proof.Gen.KernelIdeal.Points
import proofs.«159118_j4784593568415_2_alg».proof.Proof.Gen.KernelIdeal.Frame
import proofs.«159118_j4784593568415_2_alg».proof.Proof.Gen.ReferenceIdeal
import proofs.«159118_j4784593568415_2_alg».proof.Proof.Gen.Pre_finite_inputs
import proofs.«159118_j4784593568415_2_alg».proof.Proof.Gen.KernelIdeal.Value
import proofs.«159118_j4784593568415_2_alg».proof.Proof.Gen.ReferenceIdeal.Run
import proofs.«159118_j4784593568415_2_alg».proof.Proof.Gen.ReferenceIdeal.Read
import proofs.«159118_j4784593568415_2_alg».proof.Proof.KernelResult
import proofs.«159118_j4784593568415_2_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the arguments both programs end with the common result function of the
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v52_eq, Cert.ReferenceIdeal.RefValue.ref_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
